-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x64x64x16 : Shape := ⟨5, ![2, 4, 64, 64, 16]⟩
abbrev S16x64 : Shape := ⟨2, ![16, 64]⟩
abbrev S1x64x64x64 : Shape := ⟨4, ![1, 64, 64, 64]⟩
abbrev S_ : Shape := ⟨0, ![]⟩

class Facts : Prop where
  bcast_S_S2x4x64x64x16 : S_.BroadcastsInDim S2x4x64x64x16 (![] : Fin 0 → Fin S2x4x64x64x16.rank)
  reducesTo_S2x4x64x64x16_S_d0_1_2_3_4 : S2x4x64x64x16.ReducesTo [0, 1, 2, 3, 4] S_
  h_S_ : 0 < S_.numel
  bcast_S_S16x64 : S_.BroadcastsInDim S16x64 (![] : Fin 0 → Fin S16x64.rank)
  reducesTo_S16x64_S_d0_1 : S16x64.ReducesTo [0, 1] S_
  bcast_S_S1x64x64x64 : S_.BroadcastsInDim S1x64x64x64 (![] : Fin 0 → Fin S1x64x64x64.rank)
  reducesTo_S1x64x64x64_S_d0_1_2_3 : S1x64x64x64.ReducesTo [0, 1, 2, 3] S_

variable [Facts]

def fn {F : FTy → Type} [FloatOps F] (main_arg0 : FVec F S2x4x64x64x16 .f32) (main_arg1 : FVec F S16x64 .f32) (main_arg2 : FVec F S1x64x64x64 .f32) : IVec S_ 1 :=
  let main_v0 : FVec F S2x4x64x64x16 .f32 := Host.absf main_arg0
  let main_cst : FVec F S_ .f32 := constant S_ .f32 0x7F800000#32
  let main_v1 : FVec F S2x4x64x64x16 .f32 := broadcastInDim S2x4x64x64x16 ![] bcast_S_S2x4x64x64x16 main_cst
  let main_v2 : IVec S2x4x64x64x16 1 := cmpf .olt main_v0 main_v1
  let main_c : IVec S_ 1 := constantI S_ 1 1#1
  let main_v3 : IVec S_ 1 := (fun x v => Host.reduce IntOp.andi x v reducesTo_S2x4x64x64x16_S_d0_1_2_3_4 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S1x64x64x64 .f32 := Host.absf main_arg2
  let main_cst_2 : FVec F S_ .f32 := constant S_ .f32 0x7F800000#32
  let main_v10 : FVec F S1x64x64x64 .f32 := broadcastInDim S1x64x64x64 ![] bcast_S_S1x64x64x64 main_cst_2
  let main_v11 : IVec S1x64x64x64 1 := cmpf .olt main_v9 main_v10
  let main_c_3 : IVec S_ 1 := constantI S_ 1 1#1
  let main_v12 : IVec S_ 1 := (fun x v => Host.reduce IntOp.andi x v reducesTo_S1x64x64x64_S_d0_1_2_3 h_S_) main_v11 main_c_3
  let main_v13 : IVec S_ 1 := andi main_v8 main_v12
  main_v13
-- ==== Kernel.lean ====
abbrev S2x4x64x64x16 : Shape := ⟨5, ![2, 4, 64, 64, 16]⟩
abbrev S16x64 : Shape := ⟨2, ![16, 64]⟩
abbrev S1x64x64x64 : Shape := ⟨4, ![1, 64, 64, 64]⟩
abbrev S2x4x64x16x64 : Shape := ⟨5, ![2, 4, 64, 16, 64]⟩
abbrev S4096x64 : Shape := ⟨2, ![4096, 64]⟩
abbrev S2x64x64x4x64 : Shape := ⟨5, ![2, 64, 64, 4, 64]⟩
abbrev S1x4x64x16x64 : Shape := ⟨5, ![1, 4, 64, 16, 64]⟩
abbrev S1x64x64x4x64 : Shape := ⟨5, ![1, 64, 64, 4, 64]⟩
abbrev S4x64x16x64 : Shape := ⟨4, ![4, 64, 16, 64]⟩
abbrev S4x64x64x16 : Shape := ⟨4, ![4, 64, 64, 16]⟩
abbrev S64x64x4x16 : Shape := ⟨4, ![64, 64, 4, 16]⟩
abbrev S16384x16 : Shape := ⟨2, ![16384, 16]⟩
abbrev S16384x64 : Shape := ⟨2, ![16384, 64]⟩
abbrev S4096x4x64 : Shape := ⟨3, ![4096, 4, 64]⟩
abbrev S4096x1x64 : Shape := ⟨3, ![4096, 1, 64]⟩
abbrev S64x64x4x64 : Shape := ⟨4, ![64, 64, 4, 64]⟩

abbrev nBuf : Space → Nat
  | .hbm => 6
  | .vmem => 6
  | .smem => 0
  | _ => 0

abbrev bufTy : (tb : Table) → Fin (tcTables nBuf tb) → BufTy
  | .hbm, ⟨0, _⟩ => ⟨S2x4x64x64x16, .f32⟩
  | .hbm, ⟨1, _⟩ => ⟨S16x64, .f32⟩
  | .hbm, ⟨2, _⟩ => ⟨S1x64x64x64, .f32⟩
  | .hbm, ⟨3, _⟩ => ⟨S2x4x64x16x64, .f32⟩
  | .hbm, ⟨4, _⟩ => ⟨S4096x64, .f32⟩
  | .hbm, ⟨5, _⟩ => ⟨S2x64x64x4x64, .f32⟩
  | .local _ .vmem, ⟨0, _⟩ => ⟨S1x4x64x16x64, .f32⟩
  | .local _ .vmem, ⟨1, _⟩ => ⟨S1x4x64x16x64, .f32⟩
  | .local _ .vmem, ⟨2, _⟩ => ⟨S16x64, .f32⟩
  | .local _ .vmem, ⟨3, _⟩ => ⟨S4096x64, .f32⟩
  | .local _ .vmem, ⟨4, _⟩ => ⟨S1x64x64x4x64, .f32⟩
  | .local _ .vmem, ⟨5, _⟩ => ⟨S1x64x64x4x64, .f32⟩
  | _, _ => ⟨S2x4x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def k0_off1 (i : grid0.Coords) : Fin 2 → Nat :=
  let arg1 : BitVec 32 := BitVec.ofNat 32 (i 1).val
  let c64_i32 : BitVec 32 := 64#32
  let v7 : BitVec 32 := Scalar.muli arg1 c64_i32
  let c64_i32_6 : BitVec 32 := 64#32
  let v8 : BitVec 32 := Scalar.muli v7 c64_i32_6
  let v9 : Index := Scalar.indexCast v8
  let c0_7 : Index := 0#32
  ![v9.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x4x64x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x64x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2x4x64x64x16_S2x4x64x16x64_0_1_2_4_3 : S2x4x64x64x16.Transposes [0, 1, 2, 4, 3] S2x4x64x16x64
  shapeCasts_S1x64x64x64_S4096x64 : S1x64x64x64.ShapeCasts S4096x64
  inb_S1x4x64x16x64_S1x4x64x16x64_0_0_0_0_0 : ∀ a, (![0, 0, 0, 0, 0] : Fin 5 → Nat) a + S1x4x64x16x64.size a ≤ S1x4x64x16x64.size a
  h_S1x4x64x16x64 : 0 < S1x4x64x16x64.numel
  shapeCasts_S1x4x64x16x64_S4x64x16x64 : S1x4x64x16x64.ShapeCasts S4x64x16x64
  transposes_S4x64x16x64_p0_1_3_2_S4x64x64x16 : S4x64x16x64.Transposes [0, 1, 3, 2] S4x64x64x16
  transposes_S4x64x64x16_p1_2_0_3_S64x64x4x16 : S4x64x64x16.Transposes [1, 2, 0, 3] S64x64x4x16
  shapeCasts_S64x64x4x16_S16384x16 : S64x64x4x16.ShapeCasts S16384x16
  inb_S16x64_S16x64_0_0 : ∀ a, (![0, 0] : Fin 2 → Nat) a + S16x64.size a ≤ S16x64.size a
  h_S16x64 : 0 < S16x64.numel
  h_S4096x64 : 0 < S4096x64.numel
  shapeCasts_S4096x64_S4096x64 : S4096x64.ShapeCasts S4096x64
  shapeCasts_S16384x64_S4096x4x64 : S16384x64.ShapeCasts S4096x4x64
  shapeCasts_S4096x64_S4096x1x64 : S4096x64.ShapeCasts S4096x1x64
  broadcasts_S4096x1x64_S4096x4x64 : S4096x1x64.Broadcasts S4096x4x64
  shapeCasts_S4096x4x64_S64x64x4x64 : S4096x4x64.ShapeCasts S64x64x4x64
  inb_S1x64x64x4x64_S1x64x64x4x64_0_0_0_0_0 : ∀ a, (![0, 0, 0, 0, 0] : Fin 5 → Nat) a + S1x64x64x4x64.size a ≤ S1x64x64x4x64.size a
  h_S1x64x64x4x64 : 0 < S1x64x64x4x64.numel
  shapeCasts_S1x64x64x4x64_S64x64x4x64 : S1x64x64x4x64.ShapeCasts S64x64x4x64
  shapeCasts_S64x64x4x64_S1x64x64x4x64 : S64x64x4x64.ShapeCasts S1x64x64x4x64
  dot_S16384x16_S16x64_S16384x64_1_0_0_1_n_n_wf : DotDims.WF S16384x16 S16x64 S16384x64 [1] [0] [0] [1] [] []
  hrank0 : 0 < grid0.rank
  k0_off1_inb : ∀ i : grid0.Coords, ∀ a, (k0_off1 i) a + S4096x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x64x16x64.size a ≤ S2x4x64x16x64.size a
  hwx0_0 : ∀ i : grid0.Coords, EltTy.bits .f32 = 32 ∨ (Rect.block (s := S2x4x64x16x64) S1x4x64x16x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64x4x64.size a ≤ S2x64x64x4x64.size a
  hwx0_3 : ∀ i : grid0.Coords, EltTy.bits .f32 = 32 ∨ (Rect.block (s := S2x64x64x4x64) S1x64x64x4x64.size (cc0_transform_3 i) (hinb0_3 i)).WholeWords (EltTy.packing .f32)

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf

abbrev win0_0 : Pipeline.Window sig grid0 :=
  Pipeline.Window.ofSpec (Memref.whole main_call0_v0) S1x4x64x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x64x4x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4x64x64x16 : Shape := ⟨5, ![2, 4, 64, 64, 16]⟩
abbrev S16x64 : Shape := ⟨2, ![16, 64]⟩
abbrev S1x64x64x64 : Shape := ⟨4, ![1, 64, 64, 64]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S1x1x1x1x16x64 : Shape := ⟨6, ![1, 1, 1, 1, 16, 64]⟩
abbrev S2x4x64x64x16x1 : Shape := ⟨6, ![2, 4, 64, 64, 16, 1]⟩
abbrev S2x4x64x64x16x64 : Shape := ⟨6, ![2, 4, 64, 64, 16, 64]⟩
abbrev S2x4x64x64x64 : Shape := ⟨5, ![2, 4, 64, 64, 64]⟩
abbrev S1x1x64x64x64 : Shape := ⟨5, ![1, 1, 64, 64, 64]⟩
abbrev S2x64x64x4x64 : Shape := ⟨5, ![2, 64, 64, 4, 64]⟩

abbrev nBuf : Space → Nat
  | .hbm => 38
  | .vmem => 0
  | .smem => 0
  | _ => 0

abbrev bufTy : (tb : Table) → Fin (tcTables nBuf tb) → BufTy
  | .hbm, ⟨0, _⟩ => ⟨S2x4x64x64x16, .f32⟩
  | .hbm, ⟨1, _⟩ => ⟨S16x64, .f32⟩
  | .hbm, ⟨2, _⟩ => ⟨S1x64x64x64, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S1, .i32⟩
  | .hbm, ⟨13, _⟩ => ⟨S_, .i32⟩
  | .hbm, ⟨14, _⟩ => ⟨S16x1, .i32⟩
  | .hbm, ⟨15, _⟩ => ⟨S16x1, .i1⟩
  | .hbm, ⟨16, _⟩ => ⟨S1x1, .i32⟩
  | .hbm, ⟨17, _⟩ => ⟨S16x1, .i32⟩
  | .hbm, ⟨18, _⟩ => ⟨S16x1, .i1⟩
  | .hbm, ⟨19, _⟩ => ⟨S16x1, .i1⟩
  | .hbm, ⟨20, _⟩ => ⟨S_, .i1⟩
  | .hbm, ⟨21, _⟩ => ⟨S16, .i1⟩
  | .hbm, ⟨22, _⟩ => ⟨S16x64, .f32⟩
  | .hbm, ⟨23, _⟩ => ⟨S16x64, .i1⟩
  | .hbm, ⟨24, _⟩ => ⟨S_, .f32⟩
  | .hbm, ⟨25, _⟩ => ⟨S16x64, .f32⟩
  | .hbm, ⟨26, _⟩ => ⟨S16x64, .f32⟩
  | .hbm, ⟨27, _⟩ => ⟨S1x1x1x1x16x64, .f32⟩
  | .hbm, ⟨28, _⟩ => ⟨S2x4x64x64x16x1, .f32⟩
  | .hbm, ⟨29, _⟩ => ⟨S2x4x64x64x16x64, .f32⟩
  | .hbm, ⟨30, _⟩ => ⟨S2x4x64x64x16x64, .f32⟩
  | .hbm, ⟨31, _⟩ => ⟨S2x4x64x64x16x64, .f32⟩
  | .hbm, ⟨32, _⟩ => ⟨S_, .f32⟩
  | .hbm, ⟨33, _⟩ => ⟨S2x4x64x64x64, .f32⟩
  | .hbm, ⟨34, _⟩ => ⟨S1x1x64x64x64, .f32⟩
  | .hbm, ⟨35, _⟩ => ⟨S2x4x64x64x64, .f32⟩
  | .hbm, ⟨36, _⟩ => ⟨S2x4x64x64x64, .f32⟩
  | .hbm, ⟨37, _⟩ => ⟨S2x64x64x4x64, .f32⟩
  | _, _ => ⟨S2x4x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S16x64_0 : S16.BroadcastsInDim S16x64 (![0] : Fin 1 → Fin S16x64.rank)
  bcast_S_S16x64 : S_.BroadcastsInDim S16x64 (![] : Fin 0 → Fin S16x64.rank)
  shapeCasts_S16x64_S1x1x1x1x16x64 : S16x64.ShapeCasts S1x1x1x1x16x64
  bcast_S2x4x64x64x16_S2x4x64x64x16x1_0_1_2_3_4 : S2x4x64x64x16.BroadcastsInDim S2x4x64x64x16x1 (![0, 1, 2, 3, 4] : Fin 5 → Fin S2x4x64x64x16x1.rank)
  bcast_S2x4x64x64x16x1_S2x4x64x64x16x64_0_1_2_3_4_5 : S2x4x64x64x16x1.BroadcastsInDim S2x4x64x64x16x64 (![0, 1, 2, 3, 4, 5] : Fin 6 → Fin S2x4x64x64x16x64.rank)
  bcast_S1x1x1x1x16x64_S2x4x64x64x16x64_0_1_2_3_4_5 : S1x1x1x1x16x64.BroadcastsInDim S2x4x64x64x16x64 (![0, 1, 2, 3, 4, 5] : Fin 6 → Fin S2x4x64x64x16x64.rank)
  reducesTo_S2x4x64x64x16x64_S2x4x64x64x64_d4 : S2x4x64x64x16x64.ReducesTo [4] S2x4x64x64x64
  bcast_S1x64x64x64_S1x1x64x64x64_1_2_3_4 : S1x64x64x64.BroadcastsInDim S1x1x64x64x64 (![1, 2, 3, 4] : Fin 4 → Fin S1x1x64x64x64.rank)
  bcast_S1x1x64x64x64_S2x4x64x64x64_0_1_2_3_4 : S1x1x64x64x64.BroadcastsInDim S2x4x64x64x64 (![0, 1, 2, 3, 4] : Fin 5 → Fin S2x4x64x64x64.rank)
  transposes_S2x4x64x64x64_S2x64x64x4x64_0_2_3_1_4 : S2x4x64x64x64.Transposes [0, 2, 3, 1, 4] S2x64x64x4x64
  gather_S16x64_S16x1_S16x64_1_0_n_n_0_1_164_wf : GatherDims.WF S16x64 S16x1 S16x64 [1] [0] [] [0] [] 1 ![1, 64]

variable [Facts₀]

def gather_S16x64_S16x1_S16x64_1_0_n_n_0_1_164 : GatherDims S16x64 S16x1 S16x64 where
  offsetDims := [1]
  collapsedSliceDims := [0]
  operandBatchingDims := []
  startIndicesBatchingDims := []
  startIndexMap := [0]
  indexVectorDim := 1
  sliceSizes := ![1, 64]
  wf := gather_S16x64_S16x1_S16x64_1_0_n_n_0_1_164_wf

class Facts : Prop extends Facts₀ where

variable [Facts]
-- ==== Proof.Spec.lean ====
/-
  The channel-embedding layer as one function of its three arrays.

  For an input x of shape [batch 2, time 4, rows 64, columns 64, channels 16], a channel table ce of shape [16, 64] and
  a positional table pos of shape [1, 64, 64, 64], the layer's result has shape [2, 64, 64, 4, 64] — time moved behind
  the two spatial axes — and its entry at (b, h, w, t, d) is

      Σ_c x[b, t, h, w, c] · ce[c, d]  +  pos[0, h, w, d]

  over the extended reals.  No law beyond reading both programs at an index is needed to meet this function: the sum
  over the sixteen channels is taken in one piece on both sides, so nothing has to be finite.
-/
import Idealize.ShloMosaic.PureOps.Ideal
import Idealize.ShloMosaic.Lib.ValueIdx

noncomputable section

open scoped BigOperators

namespace Cert.ChannelEmbed

open Idealize.ShloMosaic Idealize.ShloMosaic.ValueIdx

/-- The layer: at (b, h, w, t, d), the channel sum of input times table row, plus the positional entry at (h, w, d). -/
def embed (x : FVec Ideal ⟨5, ![2, 4, 64, 64, 16]⟩ .f32) (ce : FVec Ideal ⟨2, ![16, 64]⟩ .f32)
    (pos : FVec Ideal ⟨4, ![1, 64, 64, 64]⟩ .f32) : FVec Ideal ⟨5, ![2, 64, 64, 4, 64]⟩ .f32 :=
  fun i => (∑ c : Fin 16, x (ix5 (i 0) (i 3) (i 1) (i 2) c) * ce (ix2 c (i 4)))
    + pos (ix4 (0 : Fin 1) (i 1) (i 2) (i 4))

/-- The same with the result index given by its coordinates. -/
theorem embed_apply (x : FVec Ideal ⟨5, ![2, 4, 64, 64, 16]⟩ .f32) (ce : FVec Ideal ⟨2, ![16, 64]⟩ .f32)
    (pos : FVec Ideal ⟨4, ![1, 64, 64, 64]⟩ .f32) (b : Fin 2) (h w : Fin 64) (t : Fin 4) (d : Fin 64) :
    embed x ce pos (ix5 b h w t d)
      = (∑ c : Fin 16, x (ix5 b t h w c) * ce (ix2 c d)) + pos (ix4 (0 : Fin 1) h w d) := rfl

end Cert.ChannelEmbed

end
-- ==== Proof.RefRun.lean ====
/-
  The reference program as one straight line of host operations, and what its result buffer holds afterwards.

  The reference first builds the channel indices 0, 1, …, 15, looks the sixteen rows of the channel table up at those
  indices (a negative index is wrapped by adding 16; a row whose index falls outside [0, 15] is replaced by a filler
  value), multiplies every input element by its channel's row, sums over the channels, adds the positional table
  (broadcast over batch and time) and finally moves the time axis behind the two spatial axes.  Here the operations of
  the look-up are listed in place, in program order, and the result buffer's contents after the run are read off as one
  term of the three argument arrays.
-/
import proofs.«167963_g76424648065964_cont_9to1_m_590_12_alg».proof.Defs
import proofs.«167963_g76424648065964_cont_9to1_m_590_12_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem
open Idealize.ShloMosaic.StableHlo

variable {F : FTy → Type} [FloatOps F]

/-- The program's thirty-five operations in order: the channel indices; the look-up (wrap, range check, gather of
    rows, filler where out of range); the product with the inputs, the sum over channels, the positional term and the
    final transpose. -/
abbrev ops : List (HloOp τ sig (Elt F)) :=
  [ nullary main_v0 (iotaInDim S16 32 0),
    TRef.nullary main_call0.c (constantI S_ 32 0#32),
    TRef.unary main_call0.c main_call0.v0 (broadcastInDim S16 ![] bcast_S_S16),
    TRef.binary (.of main_v0) main_call0.v0 main_call0.v1 (cmpi .slt),
    TRef.nullary main_call0.c_0 (constantI S_ 32 16#32),
    TRef.unary main_call0.c_0 main_call0.v2 (broadcastInDim S16 ![] bcast_S_S16),
    TRef.binary (.of main_v0) main_call0.v2 main_call0.v3 addi,
    TRef.ternary main_call0.v1 main_call0.v3 (.of main_v0) main_call0.call0.v0 select,
    TRef.unary main_call0.call0.v0 main_call0.v5 (broadcastInDim S16x1 ![0] bcast_S16_S16x1_0),
    TRef.nullary main_call0.c_1 (constantI S1 32 15#32),
    TRef.nullary main_call0.c_2 (constantI S_ 32 0#32),
    TRef.unary main_call0.c_2 main_call0.v6 (broadcastInDim S16x1 ![] bcast_S_S16x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16x1 ![0, 1] bcast_S1x1_S16x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x1_S16_d1 h_S_),
    TRef.binary (.of main_arg1) main_call0.v5 main_call0.v13 (fun x i => Host.gather gather_S16x64_S16x1_S16x64_1_0_n_n_0_1_164 x i),
    TRef.unary main_call0.v12 main_call0.v14 (broadcastInDim S16x64 ![0] bcast_S16_S16x64_0),
    TRef.nullary main_call0.cst (constant S_ .f32 0x7FC00000#32),
    TRef.unary main_call0.cst main_call0.v15 (broadcastInDim S16x64 ![] bcast_S_S16x64),
    TRef.ternary main_call0.v14 main_call0.v13 main_call0.v15 main_call0.v16 select,
    reshape main_v1 main_v2 rfl shapeCasts_S16x64_S1x1x1x1x16x64,
    unary main_arg0 main_v3 (broadcastInDim S2x4x64x64x16x1 ![0, 1, 2, 3, 4] bcast_S2x4x64x64x16_S2x4x64x64x16x1_0_1_2_3_4),
    unary main_v3 main_v4 (broadcastInDim S2x4x64x64x16x64 ![0, 1, 2, 3, 4, 5] bcast_S2x4x64x64x16x1_S2x4x64x64x16x64_0_1_2_3_4_5),
    unary main_v2 main_v5 (broadcastInDim S2x4x64x64x16x64 ![0, 1, 2, 3, 4, 5] bcast_S1x1x1x1x16x64_S2x4x64x64x16x64_0_1_2_3_4_5),
    binary main_v4 main_v5 main_v6 mulf,
    nullary main_cst (constant S_ .f32 0x00000000#32),
    binary main_v6 main_cst main_v7 (fun x v => Host.reduceAdd x v reducesTo_S2x4x64x64x16x64_S2x4x64x64x64_d4 h_S_),
    unary main_arg2 main_v8 (broadcastInDim S1x1x64x64x64 ![1, 2, 3, 4] bcast_S1x64x64x64_S1x1x64x64x64_1_2_3_4),
    unary main_v8 main_v9 (broadcastInDim S2x4x64x64x64 ![0, 1, 2, 3, 4] bcast_S1x1x64x64x64_S2x4x64x64x64_0_1_2_3_4),
    binary main_v7 main_v9 main_v10 addf,
    unary main_v10 main_v11 (transpose S2x64x64x4x64 [0, 2, 3, 1, 4] · transposes_S2x4x64x64x64_S2x64x64x4x64_0_2_3_1_4) ]

set_option maxRecDepth 1024 in
/-- The program is that straight line: the look-up's body unfolded at its call, sequencing re-associated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub .., unary_bufs_sub .., unary_bufs_sub .., binary_bufs_sub .., nullary_bufs_sub ..,
    binary_bufs_sub .., unary_bufs_sub .., unary_bufs_sub .., binary_bufs_sub .., unary_bufs_sub ..⟩

/-! ## The result as one term of the arguments -/

/-- The channel indices the look-up reads: 0, 1, …, 15, each with 16 added if it were negative, as a column. -/
def chanIdx : IVec S16x1 32 :=
  broadcastInDim S16x1 ![0] bcast_S16_S16x1_0
    (select (cmpi .slt (iotaInDim S16 32 0) (broadcastInDim S16 ![] bcast_S_S16 (constantI S_ 32 0#32)))
      (addi (iotaInDim S16 32 0) (broadcastInDim S16 ![] bcast_S_S16 (constantI S_ 32 16#32)))
      (iotaInDim S16 32 0))

/-- Per channel, whether its index lies in [0, 15]. -/
def inRange : IVec S16 1 :=
  Host.reduce IntOp.andi
    (andi (cmpi .sge chanIdx (broadcastInDim S16x1 ![] bcast_S_S16x1 (constantI S_ 32 0#32)))
      (cmpi .sle chanIdx (broadcastInDim S16x1 ![0, 1] bcast_S1x1_S16x1_0_1
        (broadcastInDim S1x1 ![1] bcast_S1_S1x1_1 (constantI S1 32 15#32)))))
    (constantI S_ 1 1#1) reducesTo_S16x1_S16_d1 h_S_

/-- The looked-up table: row c is the channel table's row at channel c's index, or the filler where that index is
    out of range. -/
def rows (ce : FVec F S16x64 .f32) : FVec F S16x64 .f32 :=
  select (broadcastInDim S16x64 ![0] bcast_S16_S16x64_0 inRange)
    (Host.gather gather_S16x64_S16x1_S16x64_1_0_n_n_0_1_164 ce chanIdx)
    (broadcastInDim S16x64 ![] bcast_S_S16x64 (constant S_ .f32 0x7FC00000#32))

/-- Every input element times its channel's looked-up row, summed over the channels, plus the positional table, in the
    input's axis order (batch, time, row, column, feature). -/
def summed (x : FVec F S2x4x64x64x16 .f32) (ce : FVec F S16x64 .f32) (pos : FVec F S1x64x64x64 .f32) :
    FVec F S2x4x64x64x64 .f32 :=
  addf
    (Host.reduceAdd
      (mulf
        (broadcastInDim S2x4x64x64x16x64 ![0, 1, 2, 3, 4, 5] bcast_S2x4x64x64x16x1_S2x4x64x64x16x64_0_1_2_3_4_5
          (broadcastInDim S2x4x64x64x16x1 ![0, 1, 2, 3, 4] bcast_S2x4x64x64x16_S2x4x64x64x16x1_0_1_2_3_4 x))
        (broadcastInDim S2x4x64x64x16x64 ![0, 1, 2, 3, 4, 5] bcast_S1x1x1x1x16x64_S2x4x64x64x16x64_0_1_2_3_4_5
          (shapeCast S1x1x1x1x16x64 (rows ce) shapeCasts_S16x64_S1x1x1x1x16x64)))
      (constant S_ .f32 0x00000000#32) reducesTo_S2x4x64x64x16x64_S2x4x64x64x64_d4 h_S_)
    (broadcastInDim S2x4x64x64x64 ![0, 1, 2, 3, 4] bcast_S1x1x64x64x64_S2x4x64x64x64_0_1_2_3_4
      (broadcastInDim S1x1x64x64x64 ![1, 2, 3, 4] bcast_S1x64x64x64_S1x1x64x64x64_1_2_3_4 pos))

/-- The program's result: that array with the time axis moved behind the two spatial axes. -/
def out (x : FVec F S2x4x64x64x16 .f32) (ce : FVec F S16x64 .f32) (pos : FVec F S1x64x64x64 .f32) :
    FVec F S2x64x64x4x64 .f32 :=
  transpose S2x64x64x4x64 [0, 2, 3, 1, 4] (summed x ce pos) transposes_S2x4x64x64x64_S2x64x64x4x64_0_2_3_1_4

set_option maxRecDepth 8192 in
/-- The operations' fold at the result buffer is `out` of the arguments' contents: each operation writes its own buffer
    and is read where later ones name it. -/
theorem out_eq (V : Valuation τ sig (Elt F)) :
    after ops V (main_v11 : DevRef τ sig)
      = out (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- Every weakly fair execution of the reference terminates with the result buffer at `out` of the arguments as
    launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Straight

end
-- ==== Proof.LibGatherScatter.lean ====
/-
  Gathers of rows and of entries by an array of start indices, the scatter-add that accumulates rows or entries at
  such indices, and two facts about sums of extended reals.

  A row gather of a matrix x : [N, C] at start indices idx : [R, 1] has result row e equal to the row of x whose number
  is idx[e, 0] read as a signed integer and clamped into [0, N − 1]; a vector gather reads one entry the same way.
  A scatter of updates : [R, C] into an operand [N, C] at the same kind of indices sends update element (e, f) to operand
  element (n, g) exactly when idx[e, 0], read signed and NOT clamped, is n, and f = g; a start index outside [0, N − 1]
  sends its update nowhere.  Multiplication by a non-negative real distributes over a finite sum of extended reals, and
  a sum of ones over a finite set is the number of its elements.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherScatter

open Idealize.ShloMosaic Idealize.ShloMosaic.ValueIdx

/-! ## Row gather: x[idx] of a matrix -/

section Gather
variable {α : Type}

/-- The dimension numbers of a row gather: operand [N, C], start indices [R, 1] (the index vector on axis 1, of length
    one, naming operand axis 0), result [R, C]; operand axis 0 is collapsed (slice size 1), operand axis 1 is the result's
    offset axis 1 (slice size C). -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at (e, f): entry f of the operand's row idx[e, 0], the start index read signed and clamped into
    [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsDims N R C wf).start (ix2 e f) idx 0 + (rowsDims N R C wf).batchCoord (ix2 e f) 0
      + (rowsDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e f) idx 1 + (rowsDims N R C wf).batchCoord (ix2 e f) 1
      + (rowsDims N R C wf).offCoord (ix2 e f) 1 = _
    rw [GatherDims.batchCoord_eq_zero _ _ _ List.not_mem_nil]
    have hst : (rowsDims N R C wf).start (ix2 e f) idx 1 = 0 := by
      unfold GatherDims.start
      rw [dif_neg (show (1 : Fin 2) ∉ (rowsDims N R C wf).startIndexMap from
        (by decide : (1 : Fin 2) ∉ ([0] : List (Fin 2))))]
    rw [hst]
    simp only [Nat.add_zero, Nat.zero_add]
    rfl

/-! ## Vector gather: x[idx] of a flat array at a column of start indices -/

/-- The dimension numbers of a vector gather: operand [N], start indices [R, 1] (the index vector on axis 1, of length
    one), result [R]; the operand's one axis is collapsed. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather read at e: the operand's entry idx[e, 0], the start index read signed and clamped into
    [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where a scatter's update lands -/

section Scatter

/-- An update element lands at operand element i exactly when, on every operand axis, the window's start (read signed,
    not clamped) plus the window coordinate is i's coordinate; a sum outside the operand's extent is no coordinate, so the
    update is then dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      simp only at h1
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    have h1 := h a
    simp only
    omega

/-- The dimension numbers of a row scatter: operand [N, C], scatter indices [R, 1] (the index vector on axis 1, of length
    one, naming operand axis 0), updates [R, C]; the updates' axis 1 is the window axis and goes to operand axis 1, operand
    axis 0 is an inserted window axis. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, f) of a row scatter lands at operand element (n, g) exactly when the scatter index idx[e, 0], read
    signed, is n, and the columns agree. -/
theorem rows_resultIdx?_eq_some_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (g : Fin C) :
    (rowsScatter N R C wf).resultIdx? (ix2 e f) idx = some (ix2 n g)
      ↔ (idx (ix2 e (0 : Fin 1))).toInt = (n.val : Int) ∧ f = g := by
  have hs0 : (rowsScatter N R C wf).start (ix2 e f) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e f)
        ⟨List.idxOf (0 : Fin 2) (rowsScatter N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e f) idx 1 = 0 := by
    unfold ScatterDims.start
    rw [dif_neg (show (1 : Fin 2) ∉ (rowsScatter N R C wf).scatterDimsToOperandDims from
      (by decide : (1 : Fin 2) ∉ ([0] : List (Fin 2))))]
  have hw0 : (rowsScatter N R C wf).window (ix2 e f) 0 = 0 := by
    unfold ScatterDims.window
    rw [dif_neg (show (0 : Fin 2) ∉ (rowsScatter N R C wf).sKept from
      (by decide : (0 : Fin 2) ∉ (List.finRange 2).filter (· ∉ ([0] : List (Fin 2)))))]
  have hw1 : (rowsScatter N R C wf).window (ix2 e f) 1 = f.val := by
    unfold ScatterDims.window
    rw [dif_pos (show (1 : Fin 2) ∈ (rowsScatter N R C wf).sKept from
      (by decide : (1 : Fin 2) ∈ (List.finRange 2).filter (· ∉ ([0] : List (Fin 2)))))]
    rfl
  rw [resultIdx?_eq_some_iff, Fin.forall_fin_two, hs0, hs1, hw0, hw1]
  show (idx (ix2 e (0 : Fin 1))).toInt + ((0 : Nat) : Int) = (n.val : Int) ∧ (0 : Int) + (f.val : Int) = (g.val : Int) ↔ _
  constructor
  · rintro ⟨h0, h1⟩
    exact ⟨by omega, Fin.ext (by omega)⟩
  · rintro ⟨h0, rfl⟩
    exact ⟨by omega, by omega⟩

/-- The dimension numbers of a vector scatter: operand [N], scatter indices [R, 1] (the index vector on axis 1, of length
    one), updates [R]; no window axis, the operand's one axis is an inserted window axis. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update element e of a vector scatter lands at operand element n exactly when the scatter index idx[e, 0], read signed,
    is n. -/
theorem vec_resultIdx?_eq_some_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (vecScatter N R wf).resultIdx? (ix1 e) idx = some (ix1 n)
      ↔ (idx (ix2 e (0 : Fin 1))).toInt = (n.val : Int) := by
  have hs0 : (vecScatter N R wf).start (ix1 e) idx 0 = (idx (ix2 e (0 : Fin 1))).toInt := by
    unfold ScatterDims.start
    rw [dif_pos (show (0 : Fin 1) ∈ (vecScatter N R wf).scatterDimsToOperandDims from List.mem_singleton.mpr rfl)]
    have hsi : (vecScatter N R wf).siIdx (ix1 e)
        ⟨List.idxOf (0 : Fin 1) (vecScatter N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N R wf).window (ix1 e) 0 = 0 := by
    unfold ScatterDims.window
    rw [dif_neg (show (0 : Fin 1) ∉ (vecScatter N R wf).sKept from
      (by decide : (0 : Fin 1) ∉ (List.finRange 1).filter (· ∉ ([0] : List (Fin 1)))))]
  rw [resultIdx?_eq_some_iff, Fin.forall_fin_one, hs0, hw0]
  show (idx (ix2 e (0 : Fin 1))).toInt + ((0 : Nat) : Int) = (n.val : Int) ↔ _
  constructor
  · intro h; omega
  · intro h; omega

end Scatter

/-! ## Sums of extended reals -/

section Sums

/-- Multiplication by a non-negative real distributes over a finite sum of extended reals (it does not for a general
    extended real factor: ⊤ + ⊥ = ⊥ while a negative factor turns it round, and 0 · ⊤ = 0). -/
theorem sum_mul_coe_of_nonneg {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- The same with the sum started at zero, the form a scatter-add into a zero array takes. -/
theorem zero_add_sum_mul_coe_of_nonneg {ι : Type*} (s : Finset ι) (a : ι → EReal) {r : ℝ} (hr : 0 ≤ r) :
    ((0 : EReal) + ∑ j ∈ s, a j) * (r : EReal) = (0 : EReal) + ∑ j ∈ s, a j * (r : EReal) := by
  rw [zero_add, zero_add, sum_mul_coe_of_nonneg s a hr]

end Sums

end Cert.Lib.GatherScatter

end
-- ==== Proof.RefValue.lean ====
/-
  The reference's result, read at an index, is the layer's function.

  The look-up's indices are 0, 1, …, 15: none is negative, so none is wrapped; all lie in [0, 15], so no row is replaced
  by the filler and no index is clamped.  The looked-up table is therefore the channel table itself.  What is left is to
  follow one result entry back through the transpose, the addition of the broadcast positional table, the sum over the
  channel axis (the initial value 0 plus the sixteen products) and the two broadcasts under the product.
-/
import proofs.«167963_g76424648065964_cont_9to1_m_590_12_alg».proof.Proof.RefRun
import proofs.«167963_g76424648065964_cont_9to1_m_590_12_alg».proof.Proof.Spec
import proofs.«167963_g76424648065964_cont_9to1_m_590_12_alg».proof.Proof.LibGatherScatter
import Idealize.ShloMosaic.Lib.Pipeline.Value
import Idealize.ShloMosaic.Lib.ValueIdx
import Idealize.ShloMosaic.Lib.ValueIdxRank6
import Idealize.ShloMosaic.PureOps.Ideal.Laws

noncomputable section

open scoped BigOperators

namespace Cert.ReferenceIdeal.Straight

open Cert.ReferenceIdeal Cert.ReferenceIdeal.Gen Idealize.ShloMosaic Idealize.ShloMosaic.ValueIdx
open Cert.Lib.GatherScatter Cert.ChannelEmbed

/-! ## The look-up returns the table -/

/-- Channel e's index is e. -/
theorem chanIdx_apply : ∀ e : Fin 16, chanIdx (ix2 e (0 : Fin 1)) = BitVec.ofNat 32 e.val := by
  intro e; fin_cases e <;> rfl

/-- Read as a signed integer and clamped into [0, 15], channel e's index is still e. -/
theorem chanIdx_clamped : ∀ e : Fin 16, min (chanIdx (ix2 e (0 : Fin 1))).toInt.toNat (16 - 1) = e.val := by
  intro e; rw [chanIdx_apply]; fin_cases e <;> rfl

/-- Every index passes the range check 0 ≤ index ≤ 15. -/
theorem range_check (i : S16x1.Idx) :
    andi (cmpi .sge chanIdx (broadcastInDim S16x1 ![] bcast_S_S16x1 (constantI S_ 32 0#32)))
        (cmpi .sle chanIdx (broadcastInDim S16x1 ![0, 1] bcast_S1x1_S16x1_0_1
          (broadcastInDim S1x1 ![1] bcast_S1_S1x1_1 (constantI S1 32 15#32)))) i = 1#1 := by
  obtain ⟨e, z, rfl⟩ : ∃ (e : Fin 16) (z : Fin 1), i = ix2 e z := ⟨i 0, i 1, eq_ix2 i⟩
  obtain rfl : z = 0 := Subsingleton.elim _ _
  show IntOp.andi (IntOp.cmpi .sge (chanIdx (ix2 e 0)) _) (IntOp.cmpi .sle (chanIdx (ix2 e 0)) _) = 1#1
  rw [chanIdx_apply]
  fin_cases e <;> rfl

/-- A conjunction folded from 1 over a list whose every term is 1 is 1. -/
theorem foldl_andi_ones {ι : Type} (f : ι → BitVec 1) (l : List ι) (hf : ∀ i ∈ l, f i = 1#1) :
    l.foldl (fun r i => IntOp.andi r (f i)) 1#1 = 1#1 := by
  induction l with
  | nil => rfl
  | cons a l ih =>
    rw [List.foldl_cons, hf a (List.mem_cons_self ..), show IntOp.andi 1#1 1#1 = 1#1 from by decide]
    exact ih fun i hi => hf i (List.mem_cons_of_mem _ hi)

/-- So every channel is in range. -/
theorem inRange_apply (e : Fin 16) : inRange (ix1 e) = 1#1 := by
  unfold inRange
  rw [Host.reduce_eq_foldl]
  exact foldl_andi_ones _ _ fun i _ => range_check i

/-- The looked-up table is the channel table. -/
theorem rows_eq (ce : FVec Ideal S16x64 .f32) : rows (F := Ideal) ce = ce := by
  funext i
  obtain ⟨c, d, rfl⟩ : ∃ (c : Fin 16) (d : Fin 64), i = ix2 c d := ⟨i 0, i 1, eq_ix2 i⟩
  unfold rows
  rw [select_apply]
  have hm : broadcastInDim S16x64 ![0] bcast_S16_S16x64_0 inRange (ix2 c d) = 1#1 := by
    refine (broadcastInDim_apply _ _ _ (ix2 c d) (ix1 c) fun a => ?_).trans (inRange_apply c)
    match a with
    | ⟨0, _⟩ => rfl
  rw [hm, select_one]
  refine (gather_rows_apply (N := 16) (R := 16) (C := 64) (by decide)
    gather_S16x64_S16x1_S16x64_1_0_n_n_0_1_164_wf ce chanIdx c d).trans ?_
  exact congrArg ce (congrArg (fun r : Fin 16 => ix2 r d) (Fin.ext (chanIdx_clamped c)))

/-! ## One entry of the result -/

/-- The summed array's index (b, t, h, w, d) with channel c put back on the summed axis is (b, t, h, w, c, d). -/
theorem lift_eq (hr : S2x4x64x64x16x64.Reduces [4] S2x4x64x64x64) (b : Fin 2) (t : Fin 4) (h w d : Fin 64) (c : Fin 16) :
    hr.lift (ix5 b t h w d) c = ix6 b t h w c d := by
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- Before the transpose, the entry at (b, t, h, w, d) is the channel sum of input times table, plus the positional
    entry at (h, w, d): the sum's initial value is 0, each product's factors are the input broadcast along the feature
    axis and the table broadcast along batch, time and the two spatial axes, and the positional table is broadcast along
    batch and time. -/
theorem summed_apply (x : FVec Ideal S2x4x64x64x16 .f32) (ce : FVec Ideal S16x64 .f32) (pos : FVec Ideal S1x64x64x64 .f32)
    (b : Fin 2) (t : Fin 4) (h w d : Fin 64) :
    summed (F := Ideal) x ce pos (ix5 b t h w d)
      = (∑ c : Fin 16, x (ix5 b t h w c) * ce (ix2 c d)) + pos (ix4 (0 : Fin 1) h w d) := by
  unfold summed
  rw [rows_eq]
  refine (addf_apply _ _ _).trans ?_
  refine congrArg₂ (· + ·) ?_ ?_
  · show Ideal.hostReduceAdd reducesTo_S2x4x64x64x16x64_S2x4x64x64x64_d4 _ _ (ix5 b t h w d) = _
    rw [Ideal.hostReduceAdd_single _ (by decide : S2x4x64x64x16x64.Reduces [4] S2x4x64x64x64)]
    show Ideal.ofBits .f32 0x00000000#32 + _ = _
    rw [Ideal.ofBits_zero_f32, zero_add]
    refine Finset.sum_congr rfl fun c _ => ?_
    refine (congrArg _ (lift_eq _ b t h w d c)).trans ?_
    refine (mulf_apply _ _ _).trans ?_
    refine congrArg₂ (· * ·) ?_ ?_
    · refine (broadcastInDim_apply _ _ _ (ix6 b t h w c d) (ix6 b t h w c (0 : Fin 1)) fun a => ?_).trans ?_
      · match a with
        | ⟨0, _⟩ => rfl
        | ⟨1, _⟩ => rfl
        | ⟨2, _⟩ => rfl
        | ⟨3, _⟩ => rfl
        | ⟨4, _⟩ => rfl
        | ⟨5, _⟩ => rfl
      refine broadcastInDim_apply _ _ _ (ix6 b t h w c (0 : Fin 1)) (ix5 b t h w c) fun a => ?_
      match a with
      | ⟨0, _⟩ => rfl
      | ⟨1, _⟩ => rfl
      | ⟨2, _⟩ => rfl
      | ⟨3, _⟩ => rfl
      | ⟨4, _⟩ => rfl
    · refine (broadcastInDim_apply _ _ _ (ix6 b t h w c d)
        (ix6 (0 : Fin 1) (0 : Fin 1) (0 : Fin 1) (0 : Fin 1) c d) fun a => ?_).trans ?_
      · match a with
        | ⟨0, _⟩ => rfl
        | ⟨1, _⟩ => rfl
        | ⟨2, _⟩ => rfl
        | ⟨3, _⟩ => rfl
        | ⟨4, _⟩ => rfl
        | ⟨5, _⟩ => rfl
      refine shapeCast_apply _ _ (ix6 (0 : Fin 1) (0 : Fin 1) (0 : Fin 1) (0 : Fin 1) c d) (ix2 c d) ?_
      rw [Shape.rowMajor_val_two, Shape.rowMajor_val_six]
      show c.val * 64 + d.val = ((((0 * 1 + 0) * 1 + 0) * 1 + 0) * 16 + c.val) * 64 + d.val
      omega
  · refine (broadcastInDim_apply _ _ _ (ix5 b t h w d) (ix5 (0 : Fin 1) (0 : Fin 1) h w d) fun a => ?_).trans ?_
    · match a with
      | ⟨0, _⟩ => rfl
      | ⟨1, _⟩ => rfl
      | ⟨2, _⟩ => rfl
      | ⟨3, _⟩ => rfl
      | ⟨4, _⟩ => rfl
    refine broadcastInDim_apply _ _ _ (ix5 (0 : Fin 1) (0 : Fin 1) h w d) (ix4 (0 : Fin 1) h w d) fun a => ?_
    match a with
    | ⟨0, _⟩ => rfl
    | ⟨1, _⟩ => rfl
    | ⟨2, _⟩ => rfl
    | ⟨3, _⟩ => rfl

/-- The reference's result is the layer's function of the three arrays: the transpose reads entry (b, h, w, t, d) at
    (b, t, h, w, d). -/
theorem out_eq_embed (x : FVec Ideal S2x4x64x64x16 .f32) (ce : FVec Ideal S16x64 .f32) (pos : FVec Ideal S1x64x64x64 .f32) :
    out (F := Ideal) x ce pos = embed x ce pos := by
  funext i
  obtain ⟨b, h, w, t, d, rfl⟩ : ∃ (b : Fin 2) (h w : Fin 64) (t : Fin 4) (d : Fin 64), i = ix5 b h w t d :=
    ⟨i 0, i 1, i 2, i 3, i 4, eq_ix5 i⟩
  unfold out
  refine (transpose_apply _ _ _ (ix5 b h w t d) (ix5 b t h w d) fun a => ?_).trans ?_
  · match a with
    | ⟨0, _⟩ => rfl
    | ⟨1, _⟩ => rfl
    | ⟨2, _⟩ => rfl
    | ⟨3, _⟩ => rfl
    | ⟨4, _⟩ => rfl
  rw [summed_apply, embed_apply]

end Cert.ReferenceIdeal.Straight

end
-- ==== Proof.KernelBlock.lean ====
/-
  The kernel body's arithmetic read at one entry of the block it stores.

  At a grid point the body holds three blocks: the input slab v0 of shape [1, time 4, rows 64, channels 16, columns 64]
  (channels ahead of columns, as the layout view hands it over), the whole channel table v5 : [16, 64], and the 4096 rows
  v10 : [4096, 64] of the flattened positional table that belong to the point.  It moves the channel axis last,
  interleaves time behind the two spatial axes, flattens (row, column, time) into 16384 product rows, multiplies by the
  channel table, and adds positional row (row, column) to each of the four time steps.  So the stored block's entry at
  (0, h, w, t, d) is   Σ_c v0[0, t, h, c, w] · v5[c, d]  +  v10[64·h + w, d].
-/
import proofs.«167963_g76424648065964_cont_9to1_m_590_12_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- Spatial position (h, w) among the 4096 flattened positions: 64·h + w. -/
def hw (h w : Fin 64) : Fin 4096 := ⟨h.val * 64 + w.val, by omega⟩

/-- Spatial position and time step (h, w, t) among the 16384 rows of the product: 4·(64·h + w) + t. -/
def hwt (h w : Fin 64) (t : Fin 4) : Fin 16384 := ⟨(h.val * 64 + w.val) * 4 + t.val, by omega⟩

/-- The product's left factor: row (h, w, t), column c of the re-laid input slab is the slab's entry at time t, row h,
    channel c, column w. -/
theorem left_apply (v0 : Vec Ideal S1x4x64x16x64 .f32) (h w : Fin 64) (t : Fin 4) (c : Fin 16) :
    shapeCast S16384x16
        (transpose S64x64x4x16 [1, 2, 0, 3]
          (transpose S4x64x64x16 [0, 1, 3, 2] (shapeCast S4x64x16x64 v0 shapeCasts_S1x4x64x16x64_S4x64x16x64)
            transposes_S4x64x16x64_p0_1_3_2_S4x64x64x16)
          transposes_S4x64x64x16_p1_2_0_3_S64x64x4x16)
        shapeCasts_S64x64x4x16_S16384x16 (ix2 (hwt h w t) c)
      = v0 (ix5 (0 : Fin 1) t h c w) := by
  refine (shapeCast_apply _ _ (ix2 (hwt h w t) c) (ix4 h w t c) ?_).trans ?_
  · rw [Shape.rowMajor_val_four, Shape.rowMajor_val_two]
    rfl
  refine (transpose_apply _ _ _ (ix4 h w t c) (ix4 t h w c) fun b => ?_).trans ?_
  · match b with
    | ⟨0, _⟩ => rfl
    | ⟨1, _⟩ => rfl
    | ⟨2, _⟩ => rfl
    | ⟨3, _⟩ => rfl
  refine (transpose_apply _ _ _ (ix4 t h w c) (ix4 t h c w) fun b => ?_).trans ?_
  · match b with
    | ⟨0, _⟩ => rfl
    | ⟨1, _⟩ => rfl
    | ⟨2, _⟩ => rfl
    | ⟨3, _⟩ => rfl
  refine shapeCast_apply _ _ (ix4 t h c w) (ix5 (0 : Fin 1) t h c w) ?_
  rw [Shape.rowMajor_val_five, Shape.rowMajor_val_four]
  show (((0 * 4 + t.val) * 64 + h.val) * 16 + c.val) * 64 + w.val = ((t.val * 64 + h.val) * 16 + c.val) * 64 + w.val
  rw [Nat.zero_mul, Nat.zero_add]

/-- The matrix product read at row (h, w, t), column d: the sum over the sixteen channels of left factor times table. -/
theorem product_apply (L : FVec Ideal S16384x16 .f32) (v5 : FVec Ideal S16x64 .f32) (r : Fin 16384) (d : Fin 64) :
    matmul dot_S16384x16_S16x64_S16384x64_1_0_0_1_n_n none L v5 (constant S16384x64 .f32 0x00000000#32) (ix2 r d)
      = ∑ c : Fin 16, L (ix2 r c) * v5 (ix2 c d) := by
  show FloatOps.matmul dot_S16384x16_S16x64_S16384x64_1_0_0_1_n_n none L v5 (constant S16384x64 .f32 0x00000000#32) (ix2 r d) = _
  rw [Ideal.matmul_constant_zero_apply,
    ← Equiv.sum_comp (contrEquiv1 dot_S16384x16_S16x64_S16384x64_1_0_0_1_n_n 16 rfl rfl).symm]
  refine Finset.sum_congr rfl fun c _ => ?_
  have c2 := contrEquiv1_symm_val dot_S16384x16_S16x64_S16384x64_1_0_0_1_n_n 16 rfl rfl c
  have l2 : dot_S16384x16_S16x64_S16384x64_1_0_0_1_n_n.lhsIdx (ix2 r d) ((contrEquiv1 _ 16 rfl rfl).symm c) = ix2 r c := by
    funext ax; apply Fin.ext
    match ax with
    | ⟨0, _⟩ => simp [DotDims.lhsIdx, dot_S16384x16_S16x64_S16384x64_1_0_0_1_n_n]; rfl
    | ⟨1, _⟩ => simp [DotDims.lhsIdx, dot_S16384x16_S16x64_S16384x64_1_0_0_1_n_n]; exact c2
  have r2 : dot_S16384x16_S16x64_S16384x64_1_0_0_1_n_n.rhsIdx (ix2 r d) ((contrEquiv1 _ 16 rfl rfl).symm c) = ix2 c d := by
    funext ax; apply Fin.ext
    match ax with
    | ⟨0, _⟩ => simp [DotDims.rhsIdx, dot_S16384x16_S16x64_S16384x64_1_0_0_1_n_n]; exact c2
    | ⟨1, _⟩ => simp [DotDims.rhsIdx, dot_S16384x16_S16x64_S16384x64_1_0_0_1_n_n]; rfl
  rw [l2, r2]

/-- The positional term: entry (64·h + w, t, d) of the rows broadcast over the four time steps is row 64·h + w's entry d. -/
theorem posrow_apply (v10 : Vec Ideal S4096x64 .f32) (h w : Fin 64) (t : Fin 4) (d : Fin 64) :
    broadcastTo S4096x4x64
        (shapeCast S4096x1x64 (shapeCast S4096x64 v10 shapeCasts_S4096x64_S4096x64) shapeCasts_S4096x64_S4096x1x64)
        broadcasts_S4096x1x64_S4096x4x64 (ix3 (hw h w) t d)
      = v10 (ix2 (hw h w) d) := by
  refine (broadcastTo_apply _ _ (ix3 (hw h w) t d) (ix3 (hw h w) (0 : Fin 1) d) fun a => ?_).trans ?_
  · match a with
    | ⟨0, _⟩ => rfl
    | ⟨1, _⟩ => rfl
    | ⟨2, _⟩ => rfl
  refine (shapeCast_apply _ _ (ix3 (hw h w) (0 : Fin 1) d) (ix2 (hw h w) d) ?_).trans ?_
  · rw [Shape.rowMajor_val_two, Shape.rowMajor_val_three]
    show (hw h w).val * 64 + d.val = ((hw h w).val * 1 + 0) * 64 + d.val
    omega
  rw [shapeCast_self]

/-- The stored block at (0, h, w, t, d): the channel sum of slab entries times table entries, plus the positional row's
    entry. -/
theorem pay_apply (v0 : Vec Ideal S1x4x64x16x64 .f32) (v5 : Vec Ideal S16x64 .f32) (v10 : Vec Ideal S4096x64 .f32)
    (h w : Fin 64) (t : Fin 4) (d : Fin 64) :
    k0_pay1 (F := Ideal) v0 v5 v10 (ix5 (0 : Fin 1) h w t d)
      = (∑ c : Fin 16, v0 (ix5 (0 : Fin 1) t h c w) * v5 (ix2 c d)) + v10 (ix2 (hw h w) d) := by
  unfold k0_pay1
  refine (shapeCast_apply _ _ (ix5 (0 : Fin 1) h w t d) (ix4 h w t d) ?_).trans ?_
  · rw [Shape.rowMajor_val_four, Shape.rowMajor_val_five]
    show ((h.val * 64 + w.val) * 4 + t.val) * 64 + d.val = (((0 * 64 + h.val) * 64 + w.val) * 4 + t.val) * 64 + d.val
    rw [Nat.zero_mul, Nat.zero_add]
  refine (shapeCast_apply _ _ (ix4 h w t d) (ix3 (hw h w) t d) ?_).trans ?_
  · rw [Shape.rowMajor_val_three, Shape.rowMajor_val_four]
    rfl
  refine (addf_apply _ _ _).trans ?_
  refine congrArg₂ (· + ·) ?_ (posrow_apply v10 h w t d)
  refine (shapeCast_apply _ _ (ix3 (hw h w) t d) (ix2 (hwt h w t) d) ?_).trans ?_
  · rw [Shape.rowMajor_val_two, Shape.rowMajor_val_three]
    rfl
  refine (product_apply _ v5 (hwt h w t) d).trans ?_
  exact Finset.sum_congr rfl fun c _ => congrArg (· * v5 (ix2 c d)) (left_apply v0 h w t c)

end Cert.KernelIdeal.Block

end
-- ==== Proof.KernelValue.lean ====
/-
  The kernel's result array, whole.

  The grid has two points, one per batch element b.  At point b the body is handed the input slab of batch b (from the
  input viewed with channels ahead of columns: entry (b, t, h, c, w) of the view is entry (b, t, h, w, c) of the
  input), the whole channel table, and the whole positional table flattened to 4096 rows (row 64·h + w is position
  (h, w); the body's row offset is 0 at both points).  It stores the block [1, 64, 64, 4, 64] computed from them, and that
  block is written back as batch b of the result.  The two blocks tile the result, so the result array ends holding the
  layer's function of the three argument arrays at every index.
-/
import proofs.«167963_g76424648065964_cont_9to1_m_590_12_alg».proof.Proof.Gen.KernelIdeal.Value
import proofs.«167963_g76424648065964_cont_9to1_m_590_12_alg».proof.Proof.KernelBlock
import proofs.«167963_g76424648065964_cont_9to1_m_590_12_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Whole

open Cert.KernelIdeal Cert.KernelIdeal.Gen Cert.KernelIdeal.Value Cert.KernelIdeal.Block Cert.ChannelEmbed
open Idealize.ShloMosaic Idealize.ShloMosaic.TcCoe Idealize.ShloMosaic.ValueIdx Idealize.SL.Sem
open Idealize.ShloMosaic.Pipeline (Dat)
open Idealize.ShloMosaic.StableHlo

/-! ## What the body stores, as a value of its three blocks -/

section AnyValues
variable {F : FTy → Type} [FloatOps F]

theorem hz5 : (![0, 0, 0, 0, 0] : Fin 5 → Nat) = fun _ => 0 := funext fun a => by fin_cases a <;> rfl
theorem hz2 : (![0, 0] : Fin 2 → Nat) = fun _ => 0 := funext fun a => by fin_cases a <;> rfl

/-- The row offset at which the body reads the positional rows is 0 at every grid point (the second grid axis has one
    point). -/
theorem off_zero : ∀ i : grid0.Coords, k0_off1 i = fun _ => 0 := by decide

/-- The body's one store covers the output block, and its loads read the whole input blocks: what it leaves in the
    output block is its arithmetic applied to the three blocks. -/
theorem stored_eq (c : Dev nD) (i : grid0.Coords) (arg2 : Memref sig .tc .vmem S1x4x64x16x64 .f32) (harg2 : arg2.IsWhole)
    (arg3 : Memref sig .tc .vmem S16x64 .f32) (harg3 : arg3.IsWhole) (arg4 : Memref sig .tc .vmem S4096x64 .f32)
    (harg4 : arg4.IsWhole) (arg5 : Memref sig .tc .vmem S1x64x64x4x64 .f32) (harg5 : arg5.IsWhole)
    (x0 : Vec F S1x4x64x16x64 .f32) (x1 : Vec F S16x64 .f32) (x2 : Vec F S4096x64 .f32) :
    out0_A_3 c i arg2 harg2 arg3 harg3 arg4 harg4 arg5 harg5 x0 x1 x2 = k0_pay1 x0 x1 x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero hz5]
  simp only [View.readAt_eq_ld, harg2.read_unread, harg3.read_unread, harg4.read_unread,
    View.ld_unit_zero (S := S1x4x64x16x64) hz5, View.ld_unit_zero (S := S16x64) hz2,
    View.ld_unit_zero (S := S4096x64) (off_zero i)]

end AnyValues

/-! ## The blocks the body is handed, as entries of the argument arrays -/

variable (m : (ℓ : Loc nD τ sig) → Buf (Elt Ideal) ℓ) (ρ : Dev nD → PrngReg)

/-- The windows' block indices over the grid: point t takes batch t of the input view and of the result, and block 0 of
    everything else. -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 5) = t.val ∧ win0_3.index t (1 : Fin 5) = 0 ∧ win0_3.index t (2 : Fin 5) = 0
    ∧ win0_3.index t (3 : Fin 5) = 0 ∧ win0_3.index t (4 : Fin 5) = 0 :=
  (by decide +kernel : ∀ t : Fin grid0.N, _)

/-- The batch element a grid point works on. -/
def batch (t : Fin cfg0.N) : Fin 2 := ⟨t.val, by have h : t.val < grid0.N := t.isLt; rw [N_0] at h; exact h⟩

/-- When the region starts, the first window's array is the input with its last two axes exchanged. -/
theorem V_view (c : Dev nD) :
    (V m c main_call0_v0 : S2x4x64x16x64.Idx → Ideal .f32)
      = transpose S2x4x64x16x64 [0, 1, 2, 4, 3] (m ((c : Thread nD τ).loc main_arg0))
          transposes_S2x4x64x64x16_S2x4x64x16x64_0_1_2_4_3 := by
  dsimp only [Gen.V, Gen.hostOps0]
  after_results
  rfl

/-- … and the third window's array is the positional table flattened to 4096 rows. -/
theorem V_rows (c : Dev nD) :
    (V m c main_call0_v1 : S4096x64.Idx → Ideal .f32)
      = shapeCast S4096x64 (m ((c : Thread nD τ).loc main_arg2)) shapeCasts_S1x64x64x64_S4096x64 := by
  dsimp only [Gen.V, Gen.hostOps0]
  after_results
  rfl

/-- The input slab at point t: entry (0, tt, h, cc, w) is the input's entry (batch t, tt, h, w, cc). -/
theorem slab_apply (c : Dev nD) (t : Fin cfg0.N) (tt : Fin 4) (h : Fin 64) (cc : Fin 16) (w : Fin 64) :
    (iblk m c 0 t : Vec Ideal S1x4x64x16x64 .f32) (ix5 (0 : Fin 1) tt h cc w)
      = m ((c : Thread nD τ).loc main_arg0) (ix5 (batch t) tt h w cc) := by
  obtain ⟨e0, e1, e2, e3, e4, -⟩ := idx_facts t
  unfold iblk
  rw [View.read_apply]
  show V m c main_call0_v0 _ = _
  rw [V_view]
  refine transpose_apply _ _ _ _ (ix5 (batch t) tt h w cc) fun a => ?_
  match a with
  | ⟨0, _⟩ => show t.val = win0_0.index t (0 : Fin 5) * 1 + 1 * 0; omega
  | ⟨1, _⟩ => show tt.val = win0_0.index t (1 : Fin 5) * 4 + 1 * tt.val; omega
  | ⟨2, _⟩ => show h.val = win0_0.index t (2 : Fin 5) * 64 + 1 * h.val; omega
  | ⟨3, _⟩ => show cc.val = win0_0.index t (3 : Fin 5) * 16 + 1 * cc.val; omega
  | ⟨4, _⟩ => show w.val = win0_0.index t (4 : Fin 5) * 64 + 1 * w.val; omega

/-- The table block at every point is the channel table. -/
theorem table_eq (c : Dev nD) (t : Fin cfg0.N) :
    (iblk m c 1 t : Vec Ideal S16x64 .f32) = m ((c : Thread nD τ).loc main_arg1) := by
  obtain ⟨-, -, -, -, -, e0, e1, -⟩ := idx_facts t
  funext y
  unfold iblk
  rw [View.read_apply]
  show V m c main_arg1 _ = _
  rw [V_main_arg1]
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 64 + 1 * (y 1).val = (y 1).val; omega

/-- The positional block at every point: row 64·h + w, entry d is the positional table's entry (0, h, w, d). -/
theorem posrows_apply (c : Dev nD) (t : Fin cfg0.N) (h w d : Fin 64) :
    (iblk m c 2 t : Vec Ideal S4096x64 .f32) (ix2 (hw h w) d)
      = m ((c : Thread nD τ).loc main_arg2) (ix4 (0 : Fin 1) h w d) := by
  obtain ⟨-, -, -, -, -, -, -, e0, e1, -⟩ := idx_facts t
  unfold iblk
  rw [View.read_apply]
  show V m c main_call0_v1 _ = _
  rw [V_rows]
  refine shapeCast_apply _ _ _ (ix4 (0 : Fin 1) h w d) ?_
  rw [Shape.rowMajor_val_four, Shape.rowMajor_val_two]
  show ((0 * 64 + h.val) * 64 + w.val) * 64 + d.val
    = (win0_2.index t (0 : Fin 2) * 4096 + 1 * (h.val * 64 + w.val)) * 64 + (win0_2.index t (1 : Fin 2) * 64 + 1 * d.val)
  omega

/-! ## From the stored blocks to the result array -/

/-- A stored block whose three input blocks are the batch-b slab of the input view, the channel table and the flattened
    positional table is batch b of the layer's function: entry (0, h, w, t, d) of the block is the function's entry
    (b, h, w, t, d). -/
theorem block_value (x0 : Vec Ideal S1x4x64x16x64 .f32) (x1 : Vec Ideal S16x64 .f32) (x2 : Vec Ideal S4096x64 .f32)
    (X : FVec Ideal S2x4x64x64x16 .f32) (CE : FVec Ideal S16x64 .f32) (POS : FVec Ideal S1x64x64x64 .f32) (b : Fin 2)
    (h0 : ∀ (tt : Fin 4) (h : Fin 64) (cc : Fin 16) (w : Fin 64), x0 (ix5 (0 : Fin 1) tt h cc w) = X (ix5 b tt h w cc))
    (h1 : x1 = CE)
    (h2 : ∀ h w d : Fin 64, x2 (ix2 (hw h w) d) = POS (ix4 (0 : Fin 1) h w d))
    (y : S1x64x64x4x64.Idx) :
    k0_pay1 (F := Ideal) x0 x1 x2 y = embed X CE POS (ix5 b (y 1) (y 2) (y 3) (y 4)) := by
  obtain ⟨z, h, w, tt, d, rfl⟩ : ∃ (z : Fin 1) (h w : Fin 64) (tt : Fin 4) (d : Fin 64), y = ix5 z h w tt d :=
    ⟨y 0, y 1, y 2, y 3, y 4, eq_ix5 y⟩
  obtain rfl : z = 0 := Subsingleton.elim _ _
  show _ = embed X CE POS (ix5 b h w tt d)
  rw [pay_apply, embed_apply, h2, h1]
  exact congrArg (· + POS (ix4 (0 : Fin 1) h w d))
    (Finset.sum_congr rfl fun cc _ => congrArg (· * CE (ix2 cc d)) (h0 tt h cc w))

/-- What point t writes back is block t of the layer's function of the argument arrays. -/
theorem flushed_eq (c : Dev nD) (t : Fin cfg0.N) :
    (dats m 0 c).flushed 3 t = ((cfg0.win 3).blk t).view.read (Elt Ideal)
      (embed (m ((c : Thread nD τ).loc main_arg0)) (m ((c : Thread nD τ).loc main_arg1))
        (m ((c : Thread nD τ).loc main_arg2))) := by
  obtain ⟨-, -, -, -, -, -, -, -, -, e0, e1, e2, e3, e4⟩ := idx_facts t
  rw [flushed3_A, stored_eq]
  funext y
  show k0_pay1 (F := Ideal) (iblk m c 0 t) (iblk m c 1 t) (iblk m c 2 t) y
    = embed _ _ _ (((cfg0.win 3).blk t).view.emb y)
  refine (block_value _ _ _ _ _ _ (batch t) (slab_apply m c t) (table_eq m c t) (posrows_apply m c t) y).trans ?_
  refine congrArg _ (funext fun a => Fin.ext ?_)
  match a with
  | ⟨0, _⟩ =>
    show t.val = win0_3.index t (0 : Fin 5) * 1 + 1 * (y 0).val
    have hy : (y 0).val < 1 := (y 0).isLt
    omega
  | ⟨1, _⟩ => show (y 1).val = win0_3.index t (1 : Fin 5) * 64 + 1 * (y 1).val; omega
  | ⟨2, _⟩ => show (y 2).val = win0_3.index t (2 : Fin 5) * 64 + 1 * (y 2).val; omega
  | ⟨3, _⟩ => show (y 3).val = win0_3.index t (3 : Fin 5) * 4 + 1 * (y 3).val; omega
  | ⟨4, _⟩ => show (y 4).val = win0_3.index t (4 : Fin 5) * 64 + 1 * (y 4).val; omega

/-- An index of the result is in point t's block exactly when each coordinate is in the block's range on its axis. -/
theorem mem_blk (t : Fin cfg0.N) (i : S2x64x64x4x64.Idx) :
    i ∈ ((cfg0.win 3).blk t).view.set ↔ ∀ a : Fin 5, win0_3.index t a * S1x64x64x4x64.size a ≤ (i a).val
      ∧ (i a).val < win0_3.index t a * S1x64x64x4x64.size a + S1x64x64x4x64.size a := by
  show i ∈ ((View.whole main_v0).slice (win0_3.rect t)).set ↔ _
  rw [View.set_slice_whole, Rect.mem_set_unit]
  exact Iff.rfl

/-- Every index of the result lies in the block of the point named by its batch coordinate. -/
theorem covered (i : S2x64x64x4x64.Idx) :
    ∃ t : Fin cfg0.N, (cfg0.win 3).flush t = true ∧ i ∈ ((cfg0.win 3).blk t).view.set := by
  have hi0 : (i 0).val < 2 := (i 0).isLt
  have hi1 : (i 1).val < 64 := (i 1).isLt
  have hi2 : (i 2).val < 64 := (i 2).isLt
  have hi3 : (i 3).val < 4 := (i 3).isLt
  have hi4 : (i 4).val < 64 := (i 4).isLt
  have hN : cfg0.N = 2 := N_0
  obtain ⟨t, ht⟩ : ∃ t : Fin cfg0.N, t.val = (i 0).val := ⟨⟨(i 0).val, by rw [hN]; exact hi0⟩, rfl⟩
  obtain ⟨-, -, -, -, -, -, -, -, -, e0, e1, e2, e3, e4⟩ := idx_facts t
  refine ⟨t, flush0_3 t, ?_⟩
  rw [mem_blk]
  intro a
  match a with
  | ⟨0, _⟩ =>
    show win0_3.index t (0 : Fin 5) * 1 ≤ (i 0).val ∧ (i 0).val < win0_3.index t (0 : Fin 5) * 1 + 1
    omega
  | ⟨1, _⟩ =>
    show win0_3.index t (1 : Fin 5) * 64 ≤ (i 1).val ∧ (i 1).val < win0_3.index t (1 : Fin 5) * 64 + 64
    omega
  | ⟨2, _⟩ =>
    show win0_3.index t (2 : Fin 5) * 64 ≤ (i 2).val ∧ (i 2).val < win0_3.index t (2 : Fin 5) * 64 + 64
    omega
  | ⟨3, _⟩ =>
    show win0_3.index t (3 : Fin 5) * 4 ≤ (i 3).val ∧ (i 3).val < win0_3.index t (3 : Fin 5) * 4 + 4
    omega
  | ⟨4, _⟩ =>
    show win0_3.index t (4 : Fin 5) * 64 ≤ (i 4).val ∧ (i 4).val < win0_3.index t (4 : Fin 5) * 64 + 64
    omega

/-- After the run the result array holds the layer's function of the argument arrays. -/
theorem final (c : Dev nD) :
    (dats m 0 c).arrAt 3 cfg0.N
      = embed (m ((c : Thread nD τ).loc main_arg0)) (m ((c : Thread nD τ).loc main_arg1))
          (m ((c : Thread nD τ).loc main_arg2)) :=
  (dats m 0 c).arrAt_eq_of_cover 3 _ (fun t _ => flushed_eq m c t) covered

/-- Every weakly fair execution of the kernel program terminates with the result array at the layer's function of the
    arguments as launched, and the arguments unchanged. -/
theorem run : θ_run defs (onTc (τ := τ) (main (F := Ideal))) ⟨m, fun _ => 0, ρ⟩ fun r => ∀ c : Dev nD,
      r.2.mem ((c : Thread nD τ).loc main_v0)
          = embed (m ((c : Thread nD τ).loc main_arg0)) (m ((c : Thread nD τ).loc main_arg1))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  The channel-embedding layer: the kernel program and the reference compute one function of their three arrays.

  Over the extended reals both programs end with the result array holding, at (b, h, w, t, d),

      Σ_c inputs[b, t, h, w, c] · channel_embeddings[c, d]  +  positional_embeddings[0, h, w, d].

  The kernel gets there by one matrix product per batch element: it re-lays the batch's slab so that (row, column, time)
  index the product's rows and the channels its columns, multiplies by the channel table into a zero accumulator, adds
  the positional rows to all four time steps, and writes the block back as that batch of the result; the two blocks tile
  the result.  The reference looks the table's rows up at the indices 0 … 15 (which returns the table), multiplies the
  broadcast input by the broadcast table, sums over the channel axis from the initial value 0, adds the broadcast
  positional table and transposes.  A product into a zero accumulator and a sum started at 0 are both the plain sum of
  the sixteen products, taken in one piece on each side, so no rearrangement of sums is needed and nothing has to be
  finite: the precondition is never opened.  The idealization rewrote nothing, so the kernel's idealized program is the
  kernel's own text read over the extended reals.
-/
import proofs.«167963_g76424648065964_cont_9to1_m_590_12_alg».proof.Defs
import proofs.«167963_g76424648065964_cont_9to1_m_590_12_alg».proof.Proof.Gen.Kernel
import proofs.«167963_g76424648065964_cont_9to1_m_590_12_alg».proof.Proof.Gen.Kernel.Skeleton
import proofs.«167963_g76424648065964_cont_9to1_m_590_12_alg».proof.Proof.Gen.Kernel.Launch
import proofs.«167963_g76424648065964_cont_9to1_m_590_12_alg».proof.Proof.Gen.Kernel.Points
import proofs.«167963_g76424648065964_cont_9to1_m_590_12_alg».proof.Proof.Gen.Kernel.Frame
import proofs.«167963_g76424648065964_cont_9to1_m_590_12_alg».proof.Proof.Gen.KernelIdeal
import proofs.«167963_g76424648065964_cont_9to1_m_590_12_alg».proof.Proof.Gen.KernelIdeal.Skeleton
import proofs.«167963_g76424648065964_cont_9to1_m_590_12_alg».proof.Proof.Gen.KernelIdeal.Launch
import proofs.«167963_g76424648065964_cont_9to1_m_590_12_alg».proof.Proof.Gen.KernelIdeal.Points
import proofs.«167963_g76424648065964_cont_9to1_m_590_12_alg».proof.Proof.Gen.KernelIdeal.Frame
import proofs.«167963_g76424648065964_cont_9to1_m_590_12_alg».proof.Proof.Gen.KernelIdeal.Value
import proofs.«167963_g76424648065964_cont_9to1_m_590_12_alg».proof.Proof.Gen.ReferenceIdeal
import proofs.«167963_g76424648065964_cont_9to1_m_590_12_alg».proof.Proof.Gen.Pre_finite_inputs
import proofs.«167963_g76424648065964_cont_9to1_m_590_12_alg».proof.Proof.Spec
import proofs.«167963_g76424648065964_cont_9to1_m_590_12_alg».proof.Proof.RefRun
import proofs.«167963_g76424648065964_cont_9to1_m_590_12_alg».proof.Proof.RefValue
import proofs.«167963_g76424648065964_cont_9to1_m_590_12_alg».proof.Proof.KernelBlock
import proofs.«167963_g76424648065964_cont_9to1_m_590_12_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed terminates, faults nowhere and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it terminates with its arguments unchanged. -/
theorem frame_referenceIdeal : Cert.frame_ReferenceIdeal := fun m ρ _ =>
  (θ_run Cert.ReferenceIdeal.defs _ _).mono (fun _ h c => (h c).2)
    (Cert.ReferenceIdeal.Straight.run (F := Ideal) m ρ)

/-- The idealization rewrote no operation. -/
theorem preserves : Cert.preserves_Kernel_KernelIdeal := trivial

/-- From memories that agree on the three arguments, both programs end with the layer's function of those arguments in
    their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2]
  exact Cert.ReferenceIdeal.Straight.out_eq_embed _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
